-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S1x4096x64 : Shape := ⟨3, ![1, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn {F : FTy → Type} [FloatOps F] (main_arg0 : FVec F S4x4096x64 .f32) (main_arg1 : FVec F S1x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S1x4096x64 .f32 := Host.absf main_arg1
  let main_cst_0 : FVec F S_ .f32 := constant S_ .f32 0x7F800000#32
  let main_v5 : FVec F S1x4096x64 .f32 := broadcastInDim S1x4096x64 ![] bcast_S_S1x4096x64 main_cst_0
  let main_v6 : IVec S1x4096x64 1 := cmpf .olt main_v4 main_v5
  let main_c_1 : IVec S_ 1 := constantI S_ 1 1#1
  let main_v7 : IVec S_ 1 := (fun x v => Host.reduce IntOp.andi x v reducesTo_S1x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x4096x64 : Shape := ⟨3, ![1, 4096, 64]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S4x4096x4096 : Shape := ⟨3, ![4, 4096, 4096]⟩
abbrev S1x1024x1024 : Shape := ⟨3, ![1, 1024, 1024]⟩
abbrev S1024x1024 : Shape := ⟨2, ![1024, 1024]⟩

abbrev nBuf : Space → Nat
  | .hbm => 4
  | .vmem => 12
  | .smem => 0
  | _ => 0

abbrev bufTy : (tb : Table) → Fin (tcTables nBuf tb) → BufTy
  | .hbm, ⟨0, _⟩ => ⟨S4x4096x64, .f32⟩
  | .hbm, ⟨1, _⟩ => ⟨S1x4096x64, .f32⟩
  | .hbm, ⟨2, _⟩ => ⟨S4x4096x64, .f32⟩
  | .hbm, ⟨3, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x1024, .f32⟩
  | .local _ .vmem, ⟨11, _⟩ => ⟨S1x1024x1024, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S1x4096x64.size a
  hwx0_1 : ∀ i : grid0.Coords, EltTy.bits .f32 = 32 ∨ (Rect.block (s := S1x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .f32 = 32 ∨ (Rect.block (s := S4x4096x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .f32 = 32 ∨ (Rect.block (s := S4x4096x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x4096.size a
  hwx1_2 : ∀ i : grid1.Coords, EltTy.bits .f32 = 32 ∨ (Rect.block (s := S4x4096x4096) S1x1024x1024.size (cc1_transform_2 i) (hinb1_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S1x4096x64 : Shape := ⟨3, ![1, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S1x4096x64, .f32⟩
  | .hbm, ⟨2, _⟩ => ⟨S4x4096x64, .f32⟩
  | .hbm, ⟨3, _⟩ => ⟨S4x4096x64, .f32⟩
  | .hbm, ⟨4, _⟩ => ⟨S4x4096x64, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x64, .f32⟩
  | .hbm, ⟨13, _⟩ => ⟨S4x4096x64, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .i1⟩
  | .hbm, ⟨18, _⟩ => ⟨S_, .f32⟩
  | .hbm, ⟨19, _⟩ => ⟨S4x4096x4096, .f32⟩
  | .hbm, ⟨20, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S1x4096x64_S4x4096x64_0_1_2 : S1x4096x64.BroadcastsInDim S4x4096x64 (![0, 1, 2] : Fin 3 → Fin S4x4096x64.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.KRegions.lean ====
/-
  The two kernel regions of the program, each at the contents `V` its core's buffers hold when the region is entered.

  Region 0 normalizes: at a grid point it is handed one block of 1024 rows of each argument, and leaves in the output
  window's buffer the body's one store, a function of the two input blocks. Region 1 multiplies: at a grid point it is
  handed two blocks of 1024 rows of the normalized array — both windows read the SAME array, each holding half of the
  share of it — and leaves in the output window's buffer a function of those two blocks. In both, an input window's
  buffer holds its block at every point (whether the pipeline fetched it there or kept it from the point before), the
  body's stores cover the output buffer, the core owes nothing, and what the body does not name (the other buffers in
  VMEM, the generator register) passes through untouched.
-/
import proofs.«137318_j39204461478656_2_alg».proof.Proof.Gen.Kernel.Launch
import proofs.«137318_j39204461478656_2_alg».proof.Proof.Gen.Kernel.Skeleton
import proofs.«137318_j39204461478656_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the rows normalized -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block: the one rectangle the body loads and stores through. -/
abbrev r0 : Rect S1x1024x64 := Rect.unit (s := S1x1024x64) ![0, 0, 0] S1x1024x64.size inb_S1x1024x64_S1x1024x64_0_0_0

/-- The output window's buffer after the body: its one store, of the two input blocks. -/
def out0_2 (x0 x1 : Vec F S1x1024x64 .f32) : Vec F S1x1024x64 .f32 :=
  View.canon [⟨r0, k0_pay1 (View.ld x0 r0) (View.ld x1 r0)⟩]

/-- The store covers the buffer. -/
theorem cover0_2 (p0 : Vec F S1x1024x64 .f32) (y : S1x1024x64.Idx) :
    ∃ pc ∈ ([⟨r0, p0⟩] : List (View.Piece (Elt F) S1x1024x64 .f32)), y ∈ pc.1.set :=
  View.cover_of_tiled [⟨r0, p0⟩] S1x1024x64.size (by rfl) y

set_option maxHeartbeats 1000000 in
/-- The body on whole buffers, the inputs' at `x0`, `x1` and the output's at anything, runs to the continuation with
    the inputs' as they were and the output's at `out0_2 x0 x1`. -/
theorem sound_kernel0 (c : Dev nD) (E : Set ℕ) (i : grid0.Coords)
    (arg2 : Memref sig .tc .vmem S1x1024x64 .f32) (harg2 : arg2.IsWhole) (arg3 : Memref sig .tc .vmem S1x1024x64 .f32) (harg3 : arg3.IsWhole)
    (arg4 : Memref sig .tc .vmem S1x1024x64 .f32) (harg4 : arg4.IsWhole)
    (x0 x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__norm_kernel i arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as entered; after the body each input's buffer at its block,
    the output's at `out0_2` of the input blocks; the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the inner products of normalized rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1i : Rect S1x1024x64 := Rect.unit (s := S1x1024x64) ![0, 0, 0] S1x1024x64.size inb_S1x1024x64_S1x1024x64_0_0_0
abbrev r1o : Rect S1x1024x1024 := Rect.unit (s := S1x1024x1024) ![0, 0, 0] S1x1024x1024.size inb_S1x1024x1024_S1x1024x1024_0_0_0

/-- The output window's buffer after the body: its one store, of the two input blocks. -/
def out1_2 (x0 x1 : Vec F S1x1024x64 .f32) : Vec F S1x1024x1024 .f32 :=
  View.canon [⟨r1o, k1_pay1 (View.ld x0 r1i) (View.ld x1 r1i)⟩]

theorem cover1_2 (p0 : Vec F S1x1024x1024 .f32) (y : S1x1024x1024.Idx) :
    ∃ pc ∈ ([⟨r1o, p0⟩] : List (View.Piece (Elt F) S1x1024x1024 .f32)), y ∈ pc.1.set :=
  View.cover_of_tiled [⟨r1o, p0⟩] S1x1024x1024.size (by rfl) y

set_option maxHeartbeats 1000000 in
theorem sound_kernel1 (c : Dev nD) (E : Set ℕ) (i : grid1.Coords)
    (arg3 : Memref sig .tc .vmem S1x1024x64 .f32) (harg3 : arg3.IsWhole) (arg4 : Memref sig .tc .vmem S1x1024x64 .f32) (harg4 : arg4.IsWhole)
    (arg5 : Memref sig .tc .vmem S1x1024x1024 .f32) (harg5 : arg5.IsWhole)
    (x0 x1 : Vec F S1x1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__mm_kernel i arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core `c`. Windows 0 and 1 read one array: each holds half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KShare.lean ====
/-
  Region 1 reads the normalized array through two windows. The core's four arrays in HBM — the two arguments, the
  normalized array, the result — are held whole; entering the region, the normalized array's points-to is split into
  two half shares, one per reading window, and the result's is the output window's; leaving it, the two halves (both
  still at the contents the region found) are joined again and the result's array is at what the region wrote.
-/
import proofs.«137318_j39204461478656_2_alg».proof.Proof.KRegions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's arrays in HBM one by one. -/
theorem ub_eq (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_v1) ↦{fullShare} Vc main_v1)) := by
  unfold unscopedBufs
  exact bigSep_eq_bigSepL_of_eq [main_arg0, main_arg1, main_v0, main_v1] (by decide) (by decide) _

variable (V : (c : Dev nD) → (b : Ref sig .tc) → Buf (Elt F) ((c : Thread nD τ).loc b))

/-- Region 1's arrays window by window: two half shares of the normalized array, the result's array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- Entering region 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [ub_eq, arrays1_eq, unscopedRest1_eq]
  iintro ⟨Ha0, Ha1, Hv0, Hv1⟩
  ihave H := (pointsTo_share (PosShare.mem_left_op_right fullShare)).1 $$ Hv0
  icases H with ⟨Hl, Hr⟩
  isplitl [Hl Hr Hv1]
  · isplitl [Hl]; · iexact Hl
    isplitl [Hr]; · iexact Hr
    iexact Hv1
  isplitl [Ha0]; · iexact Ha0
  iexact Ha1

/-- Leaving region 1: the core's arrays at any contents `V'` that have the result's array at what the region wrote
    and every other array as the region found it. -/
theorem exit1 (c : Dev nD) (n : Nat) (V' : (b : Ref sig .tc) → Buf (Elt F) ((c : Thread nD τ).loc b))
    (h0 : V' main_arg0 = V c main_arg0) (h1 : V' main_arg1 = V c main_arg1) (h2 : V' main_v0 = V c main_v0)
    (h3 : V' main_v1 = (dat1 V c).arrAt 2 n) :
    iprop((dat1 V c).arrays ((dat1 V c).arrAt · n) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [ub_eq, arrays1_eq, unscopedRest1_eq, h0, h1, h2, h3,
    show (dat1 V c).arrAt 0 n = V c main_v0 from ((dat1 V c).arrAt_in 0 rfl n).trans (A_eq1 V c 0),
    show (dat1 V c).arrAt 1 n = V c main_v0 from ((dat1 V c).arrAt_in 1 rfl n).trans (A_eq1 V c 1)]
  iintro ⟨⟨Hl, Hr, Hv1⟩, Ha0, Ha1⟩
  isplitl [Ha0]; · iexact Ha0
  isplitl [Ha1]; · iexact Ha1
  isplitl [Hl Hr]
  · iapply (pointsTo_share (PosShare.mem_left_op_right fullShare)).2
    isplitl [Hl]; · iexact Hl
    iexact Hr
  iexact Hv1

end Cert.Kernel.Fr

end
-- ==== Proof.KRun.lean ====
/-
  The program's run: two kernel regions one after the other, from the launch to the return.

  Between the regions every array in HBM is held whole at known contents: at launch what the memory holds; after
  region 0 the same but for the normalized array, which holds what region 0's write-backs leave; after region 1 the
  same again but for the result's array, which holds what region 1's write-backs leave. Every weakly fair execution
  terminates, nothing faulting, and the final memory holds every array at the last of these contents; in particular the
  two arguments end as launched, since neither region writes them.
-/
import proofs.«137318_j39204461478656_2_alg».proof.Proof.KShare

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at the three boundaries -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- After region 0: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After region 1: the result's array at what the pipeline leaves, every other buffer as entered. -/
def Wc (c : Dev nD) : Valuation τ sig (Elt F) :=
  Function.update (Wb m ρ c) (Proc.devRef .tc main_v1) ((dat1 (Vb m ρ) c).arrAt 2 cfg1.N : Buf (Elt F) ((c : Thread nD τ).loc main_v1))
abbrev Vc : (c : Dev nD) → (b : Ref sig .tc) → Buf (Elt F) ((c : Thread nD τ).loc b) := fun c b => Wc m ρ c b
theorem Vc_out (c : Dev nD) : Vc m ρ c main_v1 = (dat1 (Vb m ρ) c).arrAt 2 cfg1.N := by
  show Wc m ρ c (Proc.devRef .tc main_v1) = _
  unfold Wc; exact Function.update_self ..
theorem Vc_of_ne (c : Dev nD) (b : Ref sig .tc) (hb : b ≠ main_v1) : Vc m ρ c b = Vb m ρ c b := by
  show Wc m ρ c (Proc.devRef .tc b) = _
  unfold Wc; exact Function.update_of_ne (StableHlo.devRef_ne_of_ne hb) ..

/-- The normalized array after region 0 is what its output window's write-backs leave. -/
theorem Vb_v0 (c : Dev nD) : Vb m ρ c main_v0 = (dat0 (Va m ρ) c).arrAt 2 cfg0.N := Wb_arr m ρ c 2
/-- The arguments reach the end as launched. -/
theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := Vc_of_ne m ρ c main_arg0 (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Vc_of_ne m ρ c main_arg1 (by decide)
    _ = Wa m ρ c (Proc.devRef .tc main_arg1) := (Wb_arr m ρ c 1).trans (((dat0 (Va m ρ) c).arrAt_in 1 rfl _).trans (A_eq0 (Va m ρ) c 1))
    _ = m ((c : Thread nD τ).loc main_arg1) := rfl
/-- The arguments as region 0 finds them are the launch memory's. -/
theorem Va_arg0 (c : Dev nD) : Va m ρ c main_arg0 = m ((c : Thread nD τ).loc main_arg0) := rfl
theorem Va_arg1 (c : Dev nD) : Va m ρ c main_arg1 = m ((c : Thread nD τ).loc main_arg1) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the arrays: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wc m ρ c) ∗ ∃ r, prngReg c r)

/-! ## The regions as segments -/

set_option backward.isDefEq.respectTransparency.types false in
/-- Region 0: entered with every array at the launch contents, left with the normalized array written. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with the normalized array written, left with the result's array written. Its two reading
    windows share the normalized array, split between them on entry and joined again on exit. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := entry1 (Vb m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Vb m ρ) c cfg1.N (Vc m ρ c) (Vc_of_ne m ρ c main_arg0 (by decide)) (Vc_of_ne m ρ c main_arg1 (by decide))
      (Vc_of_ne m ρ c main_v0 (by decide)) (Vc_out m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- The run: from any memory with zero counters every weakly fair execution of the program terminates, nothing
    faulting, and the final memory holds every array in HBM at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wc_main_arg0 m ρ c),
     (h c _ (mem_uc main_arg1 (by decide))).trans (Wc_main_arg1 m ρ c)⟩) (run_all m ρ)

/-- The run with the result named: the result's array ends at what region 1's write-backs leave. -/
theorem run_named : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (Vc_out m ρ c),
     (h c _ (mem_uc main_arg0 (by decide))).trans (Wc_main_arg0 m ρ c),
     (h c _ (mem_uc main_arg1 (by decide))).trans (Wc_main_arg1 m ρ c)⟩) (run_all m ρ)

end Cert.Kernel.Fr

end
-- ==== Proof.KIRegions.lean ====
/-
  The two kernel regions of the program, each at the contents `V` its core's buffers hold when the region is entered.

  Region 0 normalizes: at a grid point it is handed one block of 1024 rows of each argument, and leaves in the output
  window's buffer the body's one store, a function of the two input blocks. Region 1 multiplies: at a grid point it is
  handed two blocks of 1024 rows of the normalized array — both windows read the SAME array, each holding half of the
  share of it — and leaves in the output window's buffer a function of those two blocks. In both, an input window's
  buffer holds its block at every point (whether the pipeline fetched it there or kept it from the point before), the
  body's stores cover the output buffer, the core owes nothing, and what the body does not name (the other buffers in
  VMEM, the generator register) passes through untouched.
-/
import proofs.«137318_j39204461478656_2_alg».proof.Proof.Gen.KernelIdeal.Launch
import proofs.«137318_j39204461478656_2_alg».proof.Proof.Gen.KernelIdeal.Skeleton
import proofs.«137318_j39204461478656_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the rows normalized -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block: the one rectangle the body loads and stores through. -/
abbrev r0 : Rect S1x1024x64 := Rect.unit (s := S1x1024x64) ![0, 0, 0] S1x1024x64.size inb_S1x1024x64_S1x1024x64_0_0_0

/-- The output window's buffer after the body: its one store, of the two input blocks. -/
def out0_2 (x0 x1 : Vec F S1x1024x64 .f32) : Vec F S1x1024x64 .f32 :=
  View.canon [⟨r0, k0_pay1 (View.ld x0 r0) (View.ld x1 r0)⟩]

/-- The store covers the buffer. -/
theorem cover0_2 (p0 : Vec F S1x1024x64 .f32) (y : S1x1024x64.Idx) :
    ∃ pc ∈ ([⟨r0, p0⟩] : List (View.Piece (Elt F) S1x1024x64 .f32)), y ∈ pc.1.set :=
  View.cover_of_tiled [⟨r0, p0⟩] S1x1024x64.size (by rfl) y

set_option maxHeartbeats 1000000 in
/-- The body on whole buffers, the inputs' at `x0`, `x1` and the output's at anything, runs to the continuation with
    the inputs' as they were and the output's at `out0_2 x0 x1`. -/
theorem sound_kernel0 (c : Dev nD) (E : Set ℕ) (i : grid0.Coords)
    (arg2 : Memref sig .tc .vmem S1x1024x64 .f32) (harg2 : arg2.IsWhole) (arg3 : Memref sig .tc .vmem S1x1024x64 .f32) (harg3 : arg3.IsWhole)
    (arg4 : Memref sig .tc .vmem S1x1024x64 .f32) (harg4 : arg4.IsWhole)
    (x0 x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__norm_kernel i arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: the arrays as entered; after the body each input's buffer at its block,
    the output's at `out0_2` of the input blocks; the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the inner products of normalized rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1i : Rect S1x1024x64 := Rect.unit (s := S1x1024x64) ![0, 0, 0] S1x1024x64.size inb_S1x1024x64_S1x1024x64_0_0_0
abbrev r1o : Rect S1x1024x1024 := Rect.unit (s := S1x1024x1024) ![0, 0, 0] S1x1024x1024.size inb_S1x1024x1024_S1x1024x1024_0_0_0

/-- The output window's buffer after the body: its one store, of the two input blocks. -/
def out1_2 (x0 x1 : Vec F S1x1024x64 .f32) : Vec F S1x1024x1024 .f32 :=
  View.canon [⟨r1o, k1_pay1 (View.ld x0 r1i) (View.ld x1 r1i)⟩]

theorem cover1_2 (p0 : Vec F S1x1024x1024 .f32) (y : S1x1024x1024.Idx) :
    ∃ pc ∈ ([⟨r1o, p0⟩] : List (View.Piece (Elt F) S1x1024x1024 .f32)), y ∈ pc.1.set :=
  View.cover_of_tiled [⟨r1o, p0⟩] S1x1024x1024.size (by rfl) y

set_option maxHeartbeats 1000000 in
theorem sound_kernel1 (c : Dev nD) (E : Set ℕ) (i : grid1.Coords)
    (arg3 : Memref sig .tc .vmem S1x1024x64 .f32) (harg3 : arg3.IsWhole) (arg4 : Memref sig .tc .vmem S1x1024x64 .f32) (harg4 : arg4.IsWhole)
    (arg5 : Memref sig .tc .vmem S1x1024x1024 .f32) (harg5 : arg5.IsWhole)
    (x0 x1 : Vec F S1x1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__mm_kernel i arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core `c`. Windows 0 and 1 read one array: each holds half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIShare.lean ====
/-
  Region 1 reads the normalized array through two windows. The core's four arrays in HBM — the two arguments, the
  normalized array, the result — are held whole; entering the region, the normalized array's points-to is split into
  two half shares, one per reading window, and the result's is the output window's; leaving it, the two halves (both
  still at the contents the region found) are joined again and the result's array is at what the region wrote.
-/
import proofs.«137318_j39204461478656_2_alg».proof.Proof.KIRegions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's arrays in HBM one by one. -/
theorem ub_eq (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_v1) ↦{fullShare} Vc main_v1)) := by
  unfold unscopedBufs
  exact bigSep_eq_bigSepL_of_eq [main_arg0, main_arg1, main_v0, main_v1] (by decide) (by decide) _

variable (V : (c : Dev nD) → (b : Ref sig .tc) → Buf (Elt F) ((c : Thread nD τ).loc b))

/-- Region 1's arrays window by window: two half shares of the normalized array, the result's array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- Entering region 1. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [ub_eq, arrays1_eq, unscopedRest1_eq]
  iintro ⟨Ha0, Ha1, Hv0, Hv1⟩
  ihave H := (pointsTo_share (PosShare.mem_left_op_right fullShare)).1 $$ Hv0
  icases H with ⟨Hl, Hr⟩
  isplitl [Hl Hr Hv1]
  · isplitl [Hl]; · iexact Hl
    isplitl [Hr]; · iexact Hr
    iexact Hv1
  isplitl [Ha0]; · iexact Ha0
  iexact Ha1

/-- Leaving region 1: the core's arrays at any contents `V'` that have the result's array at what the region wrote
    and every other array as the region found it. -/
theorem exit1 (c : Dev nD) (n : Nat) (V' : (b : Ref sig .tc) → Buf (Elt F) ((c : Thread nD τ).loc b))
    (h0 : V' main_arg0 = V c main_arg0) (h1 : V' main_arg1 = V c main_arg1) (h2 : V' main_v0 = V c main_v0)
    (h3 : V' main_v1 = (dat1 V c).arrAt 2 n) :
    iprop((dat1 V c).arrays ((dat1 V c).arrAt · n) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [ub_eq, arrays1_eq, unscopedRest1_eq, h0, h1, h2, h3,
    show (dat1 V c).arrAt 0 n = V c main_v0 from ((dat1 V c).arrAt_in 0 rfl n).trans (A_eq1 V c 0),
    show (dat1 V c).arrAt 1 n = V c main_v0 from ((dat1 V c).arrAt_in 1 rfl n).trans (A_eq1 V c 1)]
  iintro ⟨⟨Hl, Hr, Hv1⟩, Ha0, Ha1⟩
  isplitl [Ha0]; · iexact Ha0
  isplitl [Ha1]; · iexact Ha1
  isplitl [Hl Hr]
  · iapply (pointsTo_share (PosShare.mem_left_op_right fullShare)).2
    isplitl [Hl]; · iexact Hl
    iexact Hr
  iexact Hv1

end Cert.KernelIdeal.Fr

end
-- ==== Proof.KIRun.lean ====
/-
  The program's run: two kernel regions one after the other, from the launch to the return.

  Between the regions every array in HBM is held whole at known contents: at launch what the memory holds; after
  region 0 the same but for the normalized array, which holds what region 0's write-backs leave; after region 1 the
  same again but for the result's array, which holds what region 1's write-backs leave. Every weakly fair execution
  terminates, nothing faulting, and the final memory holds every array at the last of these contents; in particular the
  two arguments end as launched, since neither region writes them.
-/
import proofs.«137318_j39204461478656_2_alg».proof.Proof.KIShare

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at the three boundaries -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- After region 0: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After region 1: the result's array at what the pipeline leaves, every other buffer as entered. -/
def Wc (c : Dev nD) : Valuation τ sig (Elt F) :=
  Function.update (Wb m ρ c) (Proc.devRef .tc main_v1) ((dat1 (Vb m ρ) c).arrAt 2 cfg1.N : Buf (Elt F) ((c : Thread nD τ).loc main_v1))
abbrev Vc : (c : Dev nD) → (b : Ref sig .tc) → Buf (Elt F) ((c : Thread nD τ).loc b) := fun c b => Wc m ρ c b
theorem Vc_out (c : Dev nD) : Vc m ρ c main_v1 = (dat1 (Vb m ρ) c).arrAt 2 cfg1.N := by
  show Wc m ρ c (Proc.devRef .tc main_v1) = _
  unfold Wc; exact Function.update_self ..
theorem Vc_of_ne (c : Dev nD) (b : Ref sig .tc) (hb : b ≠ main_v1) : Vc m ρ c b = Vb m ρ c b := by
  show Wc m ρ c (Proc.devRef .tc b) = _
  unfold Wc; exact Function.update_of_ne (StableHlo.devRef_ne_of_ne hb) ..

/-- The normalized array after region 0 is what its output window's write-backs leave. -/
theorem Vb_v0 (c : Dev nD) : Vb m ρ c main_v0 = (dat0 (Va m ρ) c).arrAt 2 cfg0.N := Wb_arr m ρ c 2
/-- The arguments reach the end as launched. -/
theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := Vc_of_ne m ρ c main_arg0 (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Vc_of_ne m ρ c main_arg1 (by decide)
    _ = Wa m ρ c (Proc.devRef .tc main_arg1) := (Wb_arr m ρ c 1).trans (((dat0 (Va m ρ) c).arrAt_in 1 rfl _).trans (A_eq0 (Va m ρ) c 1))
    _ = m ((c : Thread nD τ).loc main_arg1) := rfl
/-- The arguments as region 0 finds them are the launch memory's. -/
theorem Va_arg0 (c : Dev nD) : Va m ρ c main_arg0 = m ((c : Thread nD τ).loc main_arg0) := rfl
theorem Va_arg1 (c : Dev nD) : Va m ρ c main_arg1 = m ((c : Thread nD τ).loc main_arg1) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the arrays: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wc m ρ c) ∗ ∃ r, prngReg c r)

/-! ## The regions as segments -/

set_option backward.isDefEq.respectTransparency.types false in
/-- Region 0: entered with every array at the launch contents, left with the normalized array written. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with the normalized array written, left with the result's array written. Its two reading
    windows share the normalized array, split between them on entry and joined again on exit. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := entry1 (Vb m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Vb m ρ) c cfg1.N (Vc m ρ c) (Vc_of_ne m ρ c main_arg0 (by decide)) (Vc_of_ne m ρ c main_arg1 (by decide))
      (Vc_of_ne m ρ c main_v0 (by decide)) (Vc_out m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- The run: from any memory with zero counters every weakly fair execution of the program terminates, nothing
    faulting, and the final memory holds every array in HBM at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wc_main_arg0 m ρ c),
     (h c _ (mem_uc main_arg1 (by decide))).trans (Wc_main_arg1 m ρ c)⟩) (run_all m ρ)

/-- The run with the result named: the result's array ends at what region 1's write-backs leave. -/
theorem run_named : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (Vc_out m ρ c),
     (h c _ (mem_uc main_arg0 (by decide))).trans (Wc_main_arg0 m ρ c),
     (h c _ (mem_uc main_arg1 (by decide))).trans (Wc_main_arg1 m ρ c)⟩) (run_all m ρ)

end Cert.KernelIdeal.Fr

end
-- ==== Proof.Spec.lean ====
/-
  The function both programs compute, on the extended reals, index by index.

  For a batch `b`, a row `n` and a feature `k` put `p b n k = x[b,n,k] · w[0,n,k]`. A row is normalized by the
  larger of its Euclidean length and a small positive constant: `xn[b,n,f] = p b n f / max (√(0 + ∑ₖ (p b n k)²)) ε`.
  The result is the table of inner products of normalized rows of one batch, `s = ∑ₖ xn[b,i,k] · xn[b,j,k]`,
  kept where it exceeds a threshold and replaced by a small constant elsewhere.
-/
import Idealize.ShloMosaic.PureOps.Ideal
import Idealize.ShloMosaic.Lib.ValueIdx

noncomputable section

open scoped BigOperators

namespace Cert.SimSpec

open Idealize.ShloMosaic Idealize.ShloMosaic.ValueIdx

/-- The lower bound on a row's length, the threshold, the replacement value and zero: the float literals, each the
    extended real its word denotes. -/
def eps : EReal := Ideal.ofBits .f32 0x322BCC77#32
def thr : EReal := Ideal.ofBits .f32 0x3DCCCCCD#32
def fill : EReal := Ideal.ofBits .f32 0x2822212D#32
def zero : EReal := Ideal.ofBits .f32 0x00000000#32

/-- A row of 64 numbers divided by the larger of its Euclidean length and `eps`. -/
def normRow (a : Fin 64 → EReal) (f : Fin 64) : EReal :=
  Ideal.div (a f) (max (Ideal.sqrt (zero + ∑ k : Fin 64, a k * a k)) eps)

/-- A number kept if it exceeds the threshold, replaced by `fill` otherwise. -/
def thresh (s : EReal) : EReal := Scalar.select (Ideal.cmp .ogt s thr) s fill

abbrev SX : Shape := ⟨3, ![4, 4096, 64]⟩
abbrev SW : Shape := ⟨3, ![1, 4096, 64]⟩
abbrev SO : Shape := ⟨3, ![4, 4096, 4096]⟩

/-- The product row `x[b,n,·] · w[0,n,·]`. -/
def xw (x : SX.Idx → EReal) (w : SW.Idx → EReal) (b : Fin 4) (n : Fin 4096) (k : Fin 64) : EReal :=
  x (ix3 b n k) * w (ix3 (0 : Fin 1) n k)

/-- The normalized product row at a feature. -/
def xnAt (x : SX.Idx → EReal) (w : SW.Idx → EReal) (b : Fin 4) (n : Fin 4096) (f : Fin 64) : EReal :=
  normRow (xw x w b n) f

/-- The normalized array. -/
def xn (x : SX.Idx → EReal) (w : SW.Idx → EReal) : SX.Idx → EReal := fun i => xnAt x w (i 0) (i 1) (i 2)

/-- The thresholded inner product of rows `i` and `j` of batch `b` of an array `y`. -/
def cosOf (y : SX.Idx → EReal) (b : Fin 4) (i j : Fin 4096) : EReal :=
  thresh (∑ k : Fin 64, y (ix3 b i k) * y (ix3 b j k))

/-- The result array as a function of the normalized array. -/
def cosArr (y : SX.Idx → EReal) : SO.Idx → EReal := fun i => cosOf y (i 0) (i 1) (i 2)

/-- The result array as a function of the two arguments. -/
def cosThr (x : SX.Idx → EReal) (w : SW.Idx → EReal) : SO.Idx → EReal := cosArr (xn x w)

end Cert.SimSpec

end
-- ==== Proof.KIValue.lean ====
/-
  From blocks to arrays, at the extended reals.

  Region 0's grid is 4 × 4: point (b, n) is handed rows n·1024 … n·1024 + 1023 of batch b of `x` and the same rows of
  `w`'s one batch, and writes back the same rows of batch b of the normalized array. A row of the block written is the
  row of products divided by the larger of its length and the small constant, so the block is the matching block of
  the normalized array `xn x w`; the sixteen blocks tile the array, so after region 0 the array IS `xn x w`.
  Region 1's grid is 4 × 4 × 4: point (b, i, j) is handed row blocks i and j of batch b of that array and writes back
  block (i, j) of batch b of the result: entry (p, q) of it is the thresholded inner product of row p of the first
  block and row q of the second, which is the matching entry of `cosArr` of the array; the sixty-four blocks tile
  the result.
-/
import proofs.«137318_j39204461478656_2_alg».proof.Proof.KIRun
import proofs.«137318_j39204461478656_2_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

theorem hz3 : (![0, 0, 0] : Fin 3 → Nat) = fun _ => 0 := funext fun a => by fin_cases a <;> rfl

/-- What the body of region 0 stores, read at row `r` and feature `f` of the block (the hypothesis the payload
    module proves). -/
def Pay0 : Prop := ∀ (x0 x1 : Vec Ideal S1x1024x64 .f32) (r : Fin 1024) (f : Fin 64),
    k0_pay1 (F := Ideal) x0 x1 (ix3 (0 : Fin 1) r f)
      = Cert.SimSpec.normRow (fun k => x0 (ix3 (0 : Fin 1) r k) * x1 (ix3 (0 : Fin 1) r k)) f
/-- What the body of region 1 stores, read at rows `i`, `j`. -/
def Pay1 : Prop := ∀ (a b : Vec Ideal S1x1024x64 .f32) (i j : Fin 1024),
    k1_pay1 (F := Ideal) a b (ix3 (0 : Fin 1) i j)
      = Cert.SimSpec.thresh (∑ k : Fin 64, a (ix3 (0 : Fin 1) i k) * b (ix3 (0 : Fin 1) j k))

/-! ## Region 0 -/

/-- The index maps of region 0 over its grid: the two inputs move with the output on the row axis, `x` also on the
    batch axis, `w` stays on its one batch, nothing moves on the feature axis. -/
theorem idx_facts0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = 0
    ∧ win0_1.index t (1 : Fin 3) = win0_2.index t (1 : Fin 3)
    ∧ win0_1.index t (2 : Fin 3) = 0
    ∧ win0_2.index t (2 : Fin 3) = 0
    ∧ win0_2.index t (0 : Fin 3) ≤ 3 ∧ win0_2.index t (1 : Fin 3) ≤ 3 :=
  (by decide +kernel : ∀ t : Fin grid0.N, _)

/-- Every block of the array is some point's. -/
theorem idx_onto0 : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

variable (V : (c : Dev nD) → (b : Ref sig .tc) → Buf (Elt Ideal) ((c : Thread nD τ).loc b))

/-- What point `t` of region 0 writes back is block `t` of the normalized array of the arrays the region finds. -/
theorem flushed0_eq (hp : Pay0) (c : Dev nD) (t : Fin cfg0.N) :
    (dat0 V c).flushed 2 t = ((cfg0.win 2).blk t).view.read (Elt Ideal) (Cert.SimSpec.xn (V c main_arg0) (V c main_arg1)) := by
  show (cfg0.win 2).cut (grid0.coords t) ((dat0 V c).after 2 t) = _
  rw [after0_2]
  unfold out0_2
  rw [View.canon_unit_zero hz3]
  simp only [View.ld_unit_zero (S := S1x1024x64) hz3]
  obtain ⟨e0, e1, e2, e3, e4, e5, e6, e7, e8⟩ := idx_facts0 t
  funext j
  obtain ⟨z, r, f, rfl⟩ : ∃ (z : Fin 1) (r : Fin 1024) (f : Fin 64), j = ix3 z r f := ⟨j 0, j 1, j 2, eq_ix3 j⟩
  obtain rfl : z = 0 := Subsingleton.elim _ _
  show k0_pay1 (F := Ideal) (iblk0 V c 0 t) (iblk0 V c 1 t) (ix3 (0 : Fin 1) r f) = Cert.SimSpec.xn (V c main_arg0) (V c main_arg1) (((cfg0.win 2).blk t).view.emb (ix3 (0 : Fin 1) r f))
  rw [hp]
  unfold Cert.SimSpec.xn Cert.SimSpec.xnAt
  have hf : (((cfg0.win 2).blk t).view.emb (ix3 (0 : Fin 1) r f)) 2 = f := by
    apply Fin.ext
    show win0_2.index t (2 : Fin 3) * 64 + 1 * f.val = f.val
    omega
  rw [hf]
  refine congrArg (fun a => Cert.SimSpec.normRow a f) (funext fun k => ?_)
  unfold Cert.SimSpec.xw
  have h0 : ((cfg0.win 0).blk t).view.emb (ix3 (0 : Fin 1) r k) = ix3 ((((cfg0.win 2).blk t).view.emb (ix3 (0 : Fin 1) r f)) 0) ((((cfg0.win 2).blk t).view.emb (ix3 (0 : Fin 1) r f)) 1) k := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 1024 + 1 * r.val = win0_2.index t (1 : Fin 3) * 1024 + 1 * r.val; omega
    | ⟨2, _⟩ => show win0_0.index t (2 : Fin 3) * 64 + 1 * k.val = k.val; omega
  have h1 : ((cfg0.win 1).blk t).view.emb (ix3 (0 : Fin 1) r k) = ix3 (0 : Fin 1) ((((cfg0.win 2).blk t).view.emb (ix3 (0 : Fin 1) r f)) 1) k := by
    funext a; apply Fin.ext
    match a with
    | ⟨0, _⟩ => show win0_1.index t (0 : Fin 3) * 1 + 1 * 0 = 0; omega
    | ⟨1, _⟩ => show win0_1.index t (1 : Fin 3) * 1024 + 1 * r.val = win0_2.index t (1 : Fin 3) * 1024 + 1 * r.val; omega
    | ⟨2, _⟩ => show win0_1.index t (2 : Fin 3) * 64 + 1 * k.val = k.val; omega
  refine congrArg₂ (HMul.hMul (α := EReal) (β := EReal) (γ := EReal)) ?_ ?_
  · show V c main_arg0 (((cfg0.win 0).blk t).view.emb (ix3 (0 : Fin 1) r k)) = _
    rw [h0]; rfl
  · show V c main_arg1 (((cfg0.win 1).blk t).view.emb (ix3 (0 : Fin 1) r k)) = _
    rw [h1]; rfl

theorem mem_blk0 (t : Fin cfg0.N) (i : S4x4096x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v0).slice (win0_2.rect t)).set ↔ _
  rw [View.set_slice_whole, Rect.mem_set_unit]
  exact Iff.rfl

/-- The sixteen blocks tile the normalized array. -/
theorem cover0 (i : S4x4096x64.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := idx_onto0 ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After region 0 the normalized array is `xn` of the two arrays the region found. -/
theorem final0 (hp : Pay0) (c : Dev nD) : (dat0 V c).arrAt 2 cfg0.N = Cert.SimSpec.xn (V c main_arg0) (V c main_arg1) :=
  (dat0 V c).arrAt_eq_of_cover 2 _ (fun t _ => flushed0_eq V hp c t) cover0

/-! ## Region 1 -/

theorem idx_facts1 : ∀ t : Fin cfg1.N, win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = win1_2.index t (2 : Fin 3)
    ∧ win1_1.index t (2 : Fin 3) = 0
    ∧ win1_2.index t (0 : Fin 3) ≤ 3 ∧ win1_2.index t (1 : Fin 3) ≤ 3 ∧ win1_2.index t (2 : Fin 3) ≤ 3 :=
  (by decide +kernel : ∀ t : Fin grid1.N, _)

theorem idx_onto1 : ∀ (q0 : Fin 4) (q1 : Fin 4) (q2 : Fin 4), ∃ t : Fin cfg1.N, win1_2.index t = ![q0.val, q1.val, q2.val] :=
  (by decide +kernel : ∀ (q0 : Fin 4) (q1 : Fin 4) (q2 : Fin 4), ∃ t : Fin grid1.N, win1_2.index t = ![q0.val, q1.val, q2.val])

/-- What point `t` of region 1 writes back is block `t` of the thresholded inner products of the array it reads. -/
theorem flushed1_eq (hp : Pay1) (c : Dev nD) (t : Fin cfg1.N) :
    (dat1 V c).flushed 2 t = ((cfg1.win 2).blk t).view.read (Elt Ideal) (Cert.SimSpec.cosArr (V c main_v0)) := by
  show (cfg1.win 2).cut (grid1.coords t) ((dat1 V c).after 2 t) = _
  rw [after1_2]
  unfold out1_2
  rw [View.canon_unit_zero hz3]
  simp only [View.ld_unit_zero (S := S1x1024x64) hz3]
  obtain ⟨e0, e1, e2, e3, e4, e5, e6, e7, e8⟩ := idx_facts1 t
  funext j
  obtain ⟨z, p, q, rfl⟩ : ∃ (z : Fin 1) (p : Fin 1024) (q : Fin 1024), j = ix3 z p q := ⟨j 0, j 1, j 2, eq_ix3 j⟩
  obtain rfl : z = 0 := Subsingleton.elim _ _
  show k1_pay1 (F := Ideal) (iblk1 V c 0 t) (iblk1 V c 1 t) (ix3 (0 : Fin 1) p q) = Cert.SimSpec.cosArr (V c main_v0) (((cfg1.win 2).blk t).view.emb (ix3 (0 : Fin 1) p q))
  rw [hp]
  unfold Cert.SimSpec.cosArr Cert.SimSpec.cosOf
  refine congrArg Cert.SimSpec.thresh (Finset.sum_congr rfl fun k _ => ?_)
  have h0 : ((cfg1.win 0).blk t).view.emb (ix3 (0 : Fin 1) p k) = ix3 ((((cfg1.win 2).blk t).view.emb (ix3 (0 : Fin 1) p q)) 0) ((((cfg1.win 2).blk t).view.emb (ix3 (0 : Fin 1) p q)) 1) k := by
    funext a; apply Fin.ext
    match a with
    | ⟨0, _⟩ => show win1_0.index t (0 : Fin 3) * 1 + 1 * 0 = win1_2.index t (0 : Fin 3) * 1 + 1 * 0; omega
    | ⟨1, _⟩ => show win1_0.index t (1 : Fin 3) * 1024 + 1 * p.val = win1_2.index t (1 : Fin 3) * 1024 + 1 * p.val; omega
    | ⟨2, _⟩ => show win1_0.index t (2 : Fin 3) * 64 + 1 * k.val = k.val; omega
  have h1 : ((cfg1.win 1).blk t).view.emb (ix3 (0 : Fin 1) q k) = ix3 ((((cfg1.win 2).blk t).view.emb (ix3 (0 : Fin 1) p q)) 0) ((((cfg1.win 2).blk t).view.emb (ix3 (0 : Fin 1) p q)) 2) k := by
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 1024 + 1 * q.val = win1_2.index t (2 : Fin 3) * 1024 + 1 * q.val; omega
    | ⟨2, _⟩ => show win1_1.index t (2 : Fin 3) * 64 + 1 * k.val = k.val; omega
  refine congrArg₂ (HMul.hMul (α := EReal) (β := EReal) (γ := EReal)) ?_ ?_
  · show V c main_v0 (((cfg1.win 0).blk t).view.emb (ix3 (0 : Fin 1) p k)) = _
    rw [h0]; rfl
  · show V c main_v0 (((cfg1.win 1).blk t).view.emb (ix3 (0 : Fin 1) q k)) = _
    rw [h1]; rfl

theorem mem_blk1 (t : Fin cfg1.N) (i : S4x4096x4096.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v1).slice (win1_2.rect t)).set ↔ _
  rw [View.set_slice_whole, Rect.mem_set_unit]
  exact Iff.rfl

/-- The sixty-four blocks tile the result. -/
theorem cover1 (i : S4x4096x4096.Idx) : ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 4096 := (i 2).isLt
  obtain ⟨t, ht⟩ := idx_onto1 ⟨(i 0).val, hi0⟩ ⟨(i 1).val / 1024, by omega⟩ ⟨(i 2).val / 1024, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 1024 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- After region 1 the result's array is `cosArr` of the array the region read. -/
theorem final1 (hp : Pay1) (c : Dev nD) : (dat1 V c).arrAt 2 cfg1.N = Cert.SimSpec.cosArr (V c main_v0) :=
  (dat1 V c).arrAt_eq_of_cover 2 _ (fun t _ => flushed1_eq V hp c t) cover1

/-! ## The run, read -/

variable (m : (ℓ : Loc nD τ sig) → Buf (Elt Ideal) ℓ) (ρ : Dev nD → PrngReg)

/-- The result as a function of the launch memory's two arguments. -/
theorem result_eq (hp0 : Pay0) (hp1 : Pay1) (c : Dev nD) :
    (dat1 (Vb m ρ) c).arrAt 2 cfg1.N = Cert.SimSpec.cosThr (m ((c : Thread nD τ).loc main_arg0)) (m ((c : Thread nD τ).loc main_arg1)) := by
  rw [final1 (Vb m ρ) hp1 c, Vb_v0 m ρ c, final0 (Va m ρ) hp0 c]
  rfl

/-- Every weakly fair execution terminates with the result's array at `cosThr` of the arguments, the arguments
    unchanged. -/
theorem run (hp0 : Pay0) (hp1 : Pay1) : θ_run defs (onTc (τ := τ) (main (F := Ideal))) ⟨m, fun _ => 0, ρ⟩ (fun r => ∀ c : Dev nD,
      r.2.mem ((c.tc : Thread nD τ).loc main_v1) = Cert.SimSpec.cosThr (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ hp0 hp1 c), (h c).2⟩) (run_named m ρ)

end Cert.KernelIdeal.Val

end
-- ==== Proof.Payload.lean ====
/-
  What each kernel body stores, read at one element of its block, at the extended reals.

  The first body's value at row `r`, feature `f`: the two loaded blocks lose their leading unit axis, are multiplied,
  the products squared and summed along the row from zero, the sums kept as a column, square-rooted, bounded below
  by the small constant, repeated along the row, and the products divided by that; so the element is the product row
  normalized, at `f`. The second body's value at `(i, j)`: the matrix unit's product into a zero accumulator,
  contracting the feature axis of both operands, is the inner product of row `i` of the first block and row `j` of the
  second; it is compared with the threshold and kept, or replaced by the small constant.
-/
import proofs.«137318_j39204461478656_2_alg».proof.Proof.Gen.KernelIdeal.Skeleton
import proofs.«137318_j39204461478656_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

/-! ## Two layout operations read at an index: a column made of a vector, and a column repeated along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable [Cert.KernelIdeal.Facts]

/-! ## The two non-pointwise operations: a sum along a row, and a product of a matrix with a transposed one -/

/-- The sum along axis 1 of a `[1024, 64]` array, from the zero accumulator, at row `r`. -/
theorem rowSum_at (v : FVec Ideal S1024x64 .f32) (hacc : (0x00000000#32 : BitVec 32) = 0x00000000#32) (r : Fin 1024) :
    multiReduction .add [1] S1024 v 0x00000000#32 Facts₀.reduces_S1024x64_S1024 (.inl rfl) hacc (ix1 r)
      = ∑ k : Fin 64, v (ix2 r k) := by
  refine (Ideal.multiReduction_add_single v 0x00000000#32 Facts₀.reduces_S1024x64_S1024 (.inl rfl) hacc (ix1 r)).trans ?_
  refine Finset.sum_congr rfl fun k _ => ?_
  exact congrArg v (funext fun a => Fin.ext (by match a with | ⟨0, _⟩ => rfl | ⟨1, _⟩ => rfl))

/-- A square root of a vector at an index is the square root of the element. -/
theorem sqrt_apply {s : Shape} {φ : FTy} (v : FVec Ideal s φ) (i : s.Idx) : sqrt v i = Ideal.sqrt (v i) := rfl

/-- The first body's store at row `r` and feature `f`: the row of products of the two blocks, normalized. -/
theorem pay0_apply (x0 x1 : Vec Ideal S1x1024x64 .f32) (r : Fin 1024) (f : Fin 64) :
    Cert.KernelIdeal.Gen.k0_pay1 (F := Ideal) x0 x1 (ix3 (0 : Fin 1) r f)
      = Cert.SimSpec.normRow (fun k => x0 (ix3 (0 : Fin 1) r k) * x1 (ix3 (0 : Fin 1) r k)) f := by
  unfold Cert.KernelIdeal.Gen.k0_pay1
  dsimp only
  refine (shapeCast_ab_1ab_apply _ _ (0 : Fin 1) r f).trans ?_
  rw [divf_apply, broadcastTo_a1_ab_apply, maximumf_apply, broadcast_apply, sqrt_apply, shapeCast_a_a1_apply,
    rowSum_at]
  unfold Cert.SimSpec.normRow Cert.SimSpec.zero Cert.SimSpec.eps
  rw [Ideal.ofBits_zero_f32, zero_add]
  simp only [mulf_apply, shapeCast_1ab_ab_apply]
  rfl

/-! ## The second body: inner products of rows, thresholded -/

/-- On the left operand's row axis the index reads the result's row coordinate. -/
theorem lhs_row (y : S1024x1024.Idx) (q : dot_S1024x64_S1024x64_S1024x1024_1_1_0_0_n_n.contr.Idx) :
    (dot_S1024x64_S1024x64_S1024x1024_1_1_0_0_n_n.lhsIdx y q 0).val = (y 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- On the left operand's contracted axis it reads the contraction coordinate. -/
theorem lhs_contr (y : S1024x1024.Idx) (q : dot_S1024x64_S1024x64_S1024x1024_1_1_0_0_n_n.contr.Idx) :
    (dot_S1024x64_S1024x64_S1024x1024_1_1_0_0_n_n.lhsIdx y q 1).val = (q ⟨0, by decide⟩).val :=
  dot_S1024x64_S1024x64_S1024x1024_1_1_0_0_n_n.lhsIdx_val_of_single rfl y q
/-- On the right operand's row axis the index reads the result's column coordinate. -/
theorem rhs_row (y : S1024x1024.Idx) (q : dot_S1024x64_S1024x64_S1024x1024_1_1_0_0_n_n.contr.Idx) :
    (dot_S1024x64_S1024x64_S1024x1024_1_1_0_0_n_n.rhsIdx y q 0).val = (y 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
/-- On the right operand's contracted axis it reads the contraction coordinate. -/
theorem rhs_contr (y : S1024x1024.Idx) (q : dot_S1024x64_S1024x64_S1024x1024_1_1_0_0_n_n.contr.Idx) :
    (dot_S1024x64_S1024x64_S1024x1024_1_1_0_0_n_n.rhsIdx y q 1).val = (q ⟨0, by decide⟩).val :=
  dot_S1024x64_S1024x64_S1024x1024_1_1_0_0_n_n.rhsIdx_val_of_single rfl y q

/-- The product of a `[1024, 64]` array with the transpose of another, into the zero accumulator, at `(i, j)`: the
    inner product of row `i` of the first with row `j` of the second. -/
theorem mm_at (l r : FVec Ideal S1024x64 .f32) (i j : Fin 1024) :
    matmul dot_S1024x64_S1024x64_S1024x1024_1_1_0_0_n_n (some .fp32) l r (constant (F := Ideal) S1024x1024 .f32 0x00000000#32) (ix2 i j)
      = ∑ k : Fin 64, l (ix2 i k) * r (ix2 j k) := by
  simp only [matmul]
  rw [Ideal.matmul_constant_zero_apply,
    ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 i j) ((contrEquiv1 dot_S1024x64_S1024x64_S1024x1024_1_1_0_0_n_n 64 rfl rfl).symm k) = ix2 i k :=
    funext fun a => Fin.ext (by
      match a with
      | ⟨0, _⟩ => exact lhs_row _ _
      | ⟨1, _⟩ => exact (lhs_contr _ _).trans hk)
  have er : dot_S1024x64_S1024x64_S1024x1024_1_1_0_0_n_n.rhsIdx (ix2 i j) ((contrEquiv1 dot_S1024x64_S1024x64_S1024x1024_1_1_0_0_n_n 64 rfl rfl).symm k) = ix2 j k :=
    funext fun a => Fin.ext (by
      match a with
      | ⟨0, _⟩ => exact rhs_row _ _
      | ⟨1, _⟩ => exact (rhs_contr _ _).trans hk)
  rw [el, er]

/-- The second body's store at `(i, j)`: the inner product of row `i` of one block and row `j` of the other, thresholded. -/
theorem pay1_apply (a b : Vec Ideal S1x1024x64 .f32) (i j : Fin 1024) :
    Cert.KernelIdeal.Gen.k1_pay1 (F := Ideal) a b (ix3 (0 : Fin 1) i j)
      = Cert.SimSpec.thresh (∑ k : Fin 64, a (ix3 (0 : Fin 1) i k) * b (ix3 (0 : Fin 1) j k)) := by
  unfold Cert.KernelIdeal.Gen.k1_pay1
  refine (shapeCast_ab_1ab_apply _ _ (0 : Fin 1) i j).trans ?_
  rw [select_apply, cmpf_apply, broadcast_apply, broadcast_apply, mm_at]
  unfold Cert.SimSpec.thresh Cert.SimSpec.thr Cert.SimSpec.fill
  simp only [shapeCast_1ab_ab_apply, Ideal.cmpf_def]
  rfl

end Cert.KernelIdeal.Pay

end
-- ==== Proof.RefRead.lean ====
/-
  The reference's result, read one operation at a time, is the specification's function of the two arguments.

  Read at `(b, p, q)`, the select keeps the contraction's element where the comparison with the threshold holds and
  the broadcast constant elsewhere; the contraction's element is the sum over the 64 features of the quotient array at
  `(b, p, k)` times the same array at `(b, q, k)`; the quotient array at `(b, n, f)` is the product `x[b,n,f] · w[0,n,f]`
  over the maximum of the small constant and the square root of zero plus the sum over `k` of the squared products of
  row `(b, n)`. Those are `thresh`, the inner product and `normRow` of the specification.
-/
import proofs.«137318_j39204461478656_2_alg».proof.Proof.Gen.ReferenceIdeal.Read
import proofs.«137318_j39204461478656_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.SimSpec

/-- The elementwise product of the first argument with the second one repeated along the batch axis, at `(b, n, k)`. -/
theorem v1_at (x : (⟨S4x4096x64, .f32⟩ : BufTy).Contents (Elt Ideal)) (w : (⟨S1x4096x64, .f32⟩ : BufTy).Contents (Elt Ideal))
    (b : Fin 4) (n : Fin 4096) (k : Fin 64) :
    val_main_v1 (F := Ideal) x w (ix3 b n k) = xw x w b n k := by
  have e0 : idx_main_v0 (ix3 b n k) = ix3 (0 : Fin 1) n k :=
    funext fun a => Fin.ext (by match a with | ⟨0, _⟩ => rfl | ⟨1, _⟩ => rfl | ⟨2, _⟩ => rfl)
  rw [val_main_v1_apply, val_main_v0_apply, e0]
  rfl

/-- The normalized product at `(b, n, f)`: the product row divided by the larger of its length and the lower bound. -/
theorem v9_at (x : (⟨S4x4096x64, .f32⟩ : BufTy).Contents (Elt Ideal)) (w : (⟨S1x4096x64, .f32⟩ : BufTy).Contents (Elt Ideal))
    (b : Fin 4) (n : Fin 4096) (f : Fin 64) :
    val_main_v9 (F := Ideal) x w (ix3 b n f) = xnAt x w b n f := by
  have e3 : ∀ k : Fin 64, idx_main_v3 (idx_main_v4 (idx_main_v8 (ix3 b n f))) k = ix3 b n k := fun k =>
    funext fun a => Fin.ext (by match a with | ⟨0, _⟩ => rfl | ⟨1, _⟩ => rfl | ⟨2, _⟩ => rfl)
  rw [val_main_v9_apply, val_main_v8_apply, val_main_v7_apply, val_main_v5_apply, val_main_v4_apply,
    val_main_v3_apply, val_main_v6_apply, val_main_cst_0_apply, val_main_cst_apply, v1_at]
  simp only [e3, val_main_v2_apply, v1_at, Ideal.mulf_def, Ideal.hostDivf_def, Ideal.hostUnary_sqrt_def,
    Ideal.maximumf_def, Ideal.ofBits_def]
  rfl

/-- The reference's last stage is `cosThr` of the arguments, index by index. -/
theorem ref_eq (x : (⟨Cert.ReferenceIdeal.S4x4096x64, .f32⟩ : BufTy).Contents (Elt Ideal)) (w : (⟨Cert.ReferenceIdeal.S1x4096x64, .f32⟩ : BufTy).Contents (Elt Ideal)) :
    Cert.ReferenceIdeal.Read.val_main_v13 (F := Ideal) x w = Cert.SimSpec.cosThr x w := by
  funext i
  obtain ⟨b, p, q, rfl⟩ : ∃ (b : Fin 4) (p : Fin 4096) (q : Fin 4096), i = ix3 b p q := ⟨i 0, i 1, i 2, eq_ix3 i⟩
  have el : ∀ k : Fin 64, lidx_main_v10 (ix3 b p q) k = ix3 b p k := fun k =>
    funext fun a => Fin.ext (by match a with | ⟨0, _⟩ => rfl | ⟨1, _⟩ => rfl | ⟨2, _⟩ => rfl)
  have er : ∀ k : Fin 64, ridx_main_v10 (ix3 b p q) k = ix3 b q k := fun k =>
    funext fun a => Fin.ext (by match a with | ⟨0, _⟩ => rfl | ⟨1, _⟩ => rfl | ⟨2, _⟩ => rfl)
  rw [val_main_v13_apply, val_main_v12_apply, val_main_v10_apply, val_main_v11_apply, val_main_cst_1_apply,
    val_main_call0_v0_apply, val_main_cst_2_apply]
  simp only [el, er, v9_at, Ideal.cmpf_def, Ideal.ofBits_def]
  rfl

end Cert.ReferenceIdeal.RefValue

end
-- ==== Proof.lean ====
/-
  Both programs compute, for every batch, the table of inner products of normalized rows, thresholded.

  The kernel does it in two regions. The first takes the product of `x` with `w` (one batch of `w` against all four
  of `x`), block of 1024 rows by block, and divides each row of 64 products by the larger of its Euclidean length and a
  small constant. The second takes two row blocks of one batch of that array and multiplies one by the transpose of the
  other, keeping a product where it exceeds a threshold and putting a small constant elsewhere. The reference does the
  same on whole arrays: a product, a sum of squares along the feature axis, a square root, a maximum, a quotient, one
  batched contraction over the feature axis, a comparison and a select.

  At the extended reals a float's format does not matter, the kernel's sum along the feature axis and the host's are
  the same sum from zero, the matrix unit's product into a zero accumulator and the host's contraction are the same
  sum of 64 products, and the host's square root and quotient are the kernel's. So both results are the one function
  `cosThr x w` of the arguments, index by index, with no law used beyond reading each operation at an index: nothing
  needs the inputs to be finite. The kernel's side is read off its run block by block (the sixteen blocks of the
  first region tile the normalized array, the sixty-four of the second tile the result); the reference's side off its
  run one operation at a time. Each program's run also leaves the two arguments as launched, which is its frame.
  No operation of the kernel was rewritten for the ideal reading, so there is nothing to preserve.
-/
import proofs.«137318_j39204461478656_2_alg».proof.Defs
import proofs.«137318_j39204461478656_2_alg».proof.Proof.Gen.Kernel
import proofs.«137318_j39204461478656_2_alg».proof.Proof.Gen.KernelIdeal
import proofs.«137318_j39204461478656_2_alg».proof.Proof.Gen.ReferenceIdeal
import proofs.«137318_j39204461478656_2_alg».proof.Proof.Gen.Pre_finite_inputs
import proofs.«137318_j39204461478656_2_alg».proof.Proof.KRun
import proofs.«137318_j39204461478656_2_alg».proof.Proof.KIValue
import proofs.«137318_j39204461478656_2_alg».proof.Proof.Payload
import proofs.«137318_j39204461478656_2_alg».proof.Proof.RefRead
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Fr.frame (F := Bits) m ρ
/-- So does the kernel read at the extended reals. -/
theorem frame_ki : Cert.frame_KernelIdeal := fun m ρ _ => Cert.KernelIdeal.Fr.frame (F := Ideal) m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the result at `cosThr` of the arguments. -/
theorem algebraic : Cert.algebraic_KernelIdeal_ReferenceIdeal := by
  intro m ρ m' ρ' _ hagree
  refine ⟨fun c => Cert.SimSpec.cosThr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Val.run m ρ Cert.KernelIdeal.Pay.pay0_apply Cert.KernelIdeal.Pay.pay1_apply, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
